-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 98
  | .vmem => 30
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S850000, .i32⟩
  | .hbm, ⟨24, _⟩ => ⟨S850000, .i1⟩
  | .hbm, ⟨25, _⟩ => ⟨S_, .i32⟩
  | .hbm, ⟨26, _⟩ => ⟨S850000, .i32⟩
  | .hbm, ⟨27, _⟩ => ⟨S850000, .i32⟩
  | .hbm, ⟨28, _⟩ => ⟨S850000, .i32⟩
  | .hbm, ⟨29, _⟩ => ⟨S850000x1, .i32⟩
  | .hbm, ⟨30, _⟩ => ⟨S850000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S50000x128, .f32⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000x128, .f32⟩
  | .hbm, ⟨51, _⟩ => ⟨S850000x1, .f32⟩
  | .hbm, ⟨52, _⟩ => ⟨S850000x128, .f32⟩
  | .hbm, ⟨53, _⟩ => ⟨S850000x128, .f32⟩
  | .hbm, ⟨54, _⟩ => ⟨S_, .f32⟩
  | .hbm, ⟨55, _⟩ => ⟨S50000x128, .f32⟩
  | .hbm, ⟨56, _⟩ => ⟨S850000x1, .i32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S_, .i32⟩
  | .hbm, ⟨62, _⟩ => ⟨S850000, .i32⟩
  | .hbm, ⟨63, _⟩ => ⟨S850000, .i1⟩
  | .hbm, ⟨64, _⟩ => ⟨S_, .i32⟩
  | .hbm, ⟨65, _⟩ => ⟨S850000, .i32⟩
  | .hbm, ⟨66, _⟩ => ⟨S850000, .i32⟩
  | .hbm, ⟨67, _⟩ => ⟨S850000, .i32⟩
  | .hbm, ⟨68, _⟩ => ⟨S850000x1, .i32⟩
  | .hbm, ⟨69, _⟩ => ⟨S850000x128, .f32⟩
  | .hbm, ⟨70, _⟩ => ⟨S850000x1, .f32⟩
  | .hbm, ⟨71, _⟩ => ⟨S850000x128, .f32⟩
  | .hbm, ⟨72, _⟩ => ⟨S850000x128, .f32⟩
  | .hbm, ⟨73, _⟩ => ⟨S_, .f32⟩
  | .hbm, ⟨74, _⟩ => ⟨S50000x128, .f32⟩
  | .hbm, ⟨75, _⟩ => ⟨S850000x1, .i32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x64, .f32⟩
  | .hbm, ⟨80, _⟩ => ⟨S_, .i32⟩
  | .hbm, ⟨81, _⟩ => ⟨S850000, .i32⟩
  | .hbm, ⟨82, _⟩ => ⟨S850000, .i1⟩
  | .hbm, ⟨83, _⟩ => ⟨S_, .i32⟩
  | .hbm, ⟨84, _⟩ => ⟨S850000, .i32⟩
  | .hbm, ⟨85, _⟩ => ⟨S850000, .i32⟩
  | .hbm, ⟨86, _⟩ => ⟨S850000, .i32⟩
  | .hbm, ⟨87, _⟩ => ⟨S850000x1, .i32⟩
  | .hbm, ⟨88, _⟩ => ⟨S850000x64, .f32⟩
  | .hbm, ⟨89, _⟩ => ⟨S850000x1, .f32⟩
  | .hbm, ⟨90, _⟩ => ⟨S850000x64, .f32⟩
  | .hbm, ⟨91, _⟩ => ⟨S850000x64, .f32⟩
  | .hbm, ⟨92, _⟩ => ⟨S_, .f32⟩
  | .hbm, ⟨93, _⟩ => ⟨S50000x64, .f32⟩
  | .hbm, ⟨94, _⟩ => ⟨S850000x1, .i32⟩
  | .hbm, ⟨95, _⟩ => ⟨S50000x64, .f32⟩
  | .hbm, ⟨96, _⟩ => ⟨S1x64, .f32⟩
  | .hbm, ⟨97, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_c_8 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c_10 : Ref sig .tc := ⟨.hbm, 80, rfl⟩
abbrev main_v60 : Ref sig .tc := ⟨.hbm, 81, rfl⟩
abbrev main_v61 : Ref sig .tc := ⟨.hbm, 82, rfl⟩
abbrev main_c_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_12 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S50000x64.size a
  hwx4_2 : ∀ i : grid4.Coords, EltTy.bits .f32 = 32 ∨ (Rect.block (s := S50000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v56) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v57) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v58) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v59) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v72) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 145
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S50000, .i32⟩
  | 9 => ⟨S1x800000, .i32⟩
  | 10 => ⟨S800000, .i32⟩
  | 11 => ⟨S850000, .i32⟩
  | 12 => ⟨S1x800000, .i32⟩
  | 13 => ⟨S800000, .i32⟩
  | 14 => ⟨S850000, .i32⟩
  | 15 => ⟨S_, .f32⟩
  | 16 => ⟨S850000, .f32⟩
  | 17 => ⟨S_, .f32⟩
  | 18 => ⟨S50000, .f32⟩
  | 19 => ⟨S850000x1, .i32⟩
  | 20 => ⟨S50000, .f32⟩
  | 21 => ⟨S50000, .f32⟩
  | 22 => ⟨S50000x128, .f32⟩
  | 23 => ⟨S_, .i32⟩
  | 24 => ⟨S850000, .i32⟩
  | 25 => ⟨S850000, .i1⟩
  | 26 => ⟨S_, .i32⟩
  | 27 => ⟨S850000, .i32⟩
  | 28 => ⟨S850000, .i32⟩
  | 29 => ⟨S850000, .i32⟩
  | 30 => ⟨S850000x1, .i32⟩
  | 31 => ⟨S850000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000x128, .f32⟩
  | 51 => ⟨S850000x1, .f32⟩
  | 52 => ⟨S850000x128, .f32⟩
  | 53 => ⟨S850000x128, .f32⟩
  | 54 => ⟨S_, .f32⟩
  | 55 => ⟨S50000x128, .f32⟩
  | 56 => ⟨S850000x1, .i32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S50000x128, .f32⟩
  | 65 => ⟨S_, .i32⟩
  | 66 => ⟨S850000, .i32⟩
  | 67 => ⟨S850000, .i1⟩
  | 68 => ⟨S_, .i32⟩
  | 69 => ⟨S850000, .i32⟩
  | 70 => ⟨S850000, .i32⟩
  | 71 => ⟨S850000, .i32⟩
  | 72 => ⟨S850000x1, .i32⟩
  | 73 => ⟨S850000, .f32⟩
  | 74 => ⟨S_, .i32⟩
  | 75 => ⟨S850000, .i32⟩
  | 76 => ⟨S850000, .i1⟩
  | 77 => ⟨S_, .i32⟩
  | 78 => ⟨S850000, .i32⟩
  | 79 => ⟨S850000, .i32⟩
  | 80 => ⟨S850000, .i32⟩
  | 81 => ⟨S850000x1, .i32⟩
  | 82 => ⟨S850000, .f32⟩
  | 83 => ⟨S850000, .f32⟩
  | 84 => ⟨S_, .i32⟩
  | 85 => ⟨S850000, .i32⟩
  | 86 => ⟨S850000, .i1⟩
  | 87 => ⟨S_, .i32⟩
  | 88 => ⟨S850000, .i32⟩
  | 89 => ⟨S850000, .i32⟩
  | 90 => ⟨S850000, .i32⟩
  | 91 => ⟨S850000x1, .i32⟩
  | 92 => ⟨S850000x128, .f32⟩
  | 93 => ⟨S850000x1, .f32⟩
  | 94 => ⟨S850000x128, .f32⟩
  | 95 => ⟨S850000x128, .f32⟩
  | 96 => ⟨S_, .f32⟩
  | 97 => ⟨S50000x128, .f32⟩
  | 98 => ⟨S850000x1, .i32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S50000x64, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000, .f32⟩
  | 125 => ⟨S850000, .f32⟩
  | 126 => ⟨S_, .i32⟩
  | 127 => ⟨S850000, .i32⟩
  | _ => ⟨S50000x128, .f32⟩

abbrev hbmTy0_1 (i : Nat) : BufTy := match i % 128 with
  | 0 => ⟨S850000, .i1⟩
  | 1 => ⟨S_, .i32⟩
  | 2 => ⟨S850000, .i32⟩
  | 3 => ⟨S850000, .i32⟩
  | 4 => ⟨S850000, .i32⟩
  | 5 => ⟨S850000x1, .i32⟩
  | 6 => ⟨S850000x64, .f32⟩
  | 7 => ⟨S850000x1, .f32⟩
  | 8 => ⟨S850000x64, .f32⟩
  | 9 => ⟨S850000x64, .f32⟩
  | 10 => ⟨S_, .f32⟩
  | 11 => ⟨S50000x64, .f32⟩
  | 12 => ⟨S850000x1, .i32⟩
  | 13 => ⟨S50000x64, .f32⟩
  | 14 => ⟨S1x64, .f32⟩
  | 15 => ⟨S50000x64, .f32⟩
  | 16 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_2 : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call0_cst : Ref sig .tc := ⟨.hbm, 61, rfl⟩
abbrev main_call0_v0 : Ref sig .tc := ⟨.hbm, 62, rfl⟩
abbrev main_v44 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_v47 : Ref sig .tc := ⟨.hbm, 67, rfl⟩
abbrev main_c_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_11 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_13 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_call1_cst : Ref sig .tc := ⟨.hbm, 103, rfl⟩
abbrev main_call1_v0 : Ref sig .tc := ⟨.hbm, 104, rfl⟩
abbrev main_v77 : Ref sig .tc := ⟨.hbm, 105, rfl⟩
abbrev main_v78 : Ref sig .tc := ⟨.hbm, 106, rfl⟩
abbrev main_c_14 : Ref sig .tc := ⟨.hbm, 107, rfl⟩
abbrev main_v79 : Ref sig .tc := ⟨.hbm, 108, rfl⟩
abbrev main_v80 : Ref sig .tc := ⟨.hbm, 109, rfl⟩
abbrev main_c_15 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_16 : Ref sig .tc := ⟨.hbm, 116, rfl⟩
abbrev main_v86 : Ref sig .tc := ⟨.hbm, 117, rfl⟩
abbrev main_v87 : Ref sig .tc := ⟨.hbm, 118, rfl⟩
abbrev main_c_17 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_c_18 : Ref sig .tc := ⟨.hbm, 126, rfl⟩
abbrev main_v94 : Ref sig .tc := ⟨.hbm, 127, rfl⟩
abbrev main_v95 : Ref sig .tc := ⟨.hbm, 128, rfl⟩
abbrev main_c_19 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_20 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  dot_S50000x128_S128x128_S50000x128_1_0_0_1_n_n_wf : DotDims.WF S50000x128 S128x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KernelRun.lean ====
/-
  The idealized kernel's run with its result named. The program is six pipelined calls among four stretches of
  host operations; every weakly fair execution terminates with the result buffer holding what the last call's
  write-backs leave (the last boundary's contents at that buffer) and the eight argument arrays as launched.
  The contents at each boundary are a fold through the program: a host stretch applies its operations, a call
  replaces its three arrays by what its pipeline leaves and keeps every other buffer.
-/
import proofs.«151111_j11312943858128_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents there, and each argument array ends as launched. -/
theorem run_result : θ_run defs (onTc (τ := τ) (main (F := F))) ⟨m, fun _ => 0, ρ⟩ (fun r => ∀ c : Dev nD,
      r.2.mem ((c.tc : Thread nD τ).loc main_v74) = W10 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v74 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Hand

end
-- ==== Proof.LibMatmulRowCol.lean ====
/-
  A plain matrix product into a zero accumulator, read at an entry, at the ideal values.

  For any dimension numbers over an [M, K] left operand, a [K, N] right operand and an [M, N] result that
  contract the left operand's second axis against the right operand's first (stated as four coordinate facts
  about the dimension numbers' operand indices, which a literal record proves by unfolding), entry (p, c) of
  `matmul D none X W 0` is the sum over k of X p k · W k c. General in M, K, N and in both operand formats;
  nothing in it is specific to one kernel.
-/
import Idealize.ShloMosaic.Lib.ValueIdx
import Idealize.ShloMosaic.PureOps.Ideal.Laws

noncomputable section

namespace Cert.LibMatmul

open Idealize.ShloMosaic Idealize.ShloMosaic.ValueIdx

/-- For dimension numbers contracting the left operand's columns against the right operand's rows
    (the four coordinate facts hl0 … hr1 say so), entry (p, c) of the product into a zero accumulator
    is Σ_k X p k · W k c. -/
theorem matmul_rowcol {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (X : FVec Ideal ⟨2, ![M, K]⟩ φ₁) (W : FVec Ideal ⟨2, ![K, N]⟩ φ₂) (p : Fin M) (c : Fin N) :
    matmul D none X W (constant ⟨2, ![M, N]⟩ .f32 0x00000000#32) (ix2 p c)
      = ∑ k : Fin K, X (ix2 p k) * W (ix2 k c) := by
  refine (Ideal.matmul_constant_zero_apply D none X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibMatmul

end
-- ==== Proof.LibDotGeneralRowCol.lean ====
/-
  A plain matrix product on the host, read at an entry, at the ideal values.

  For any dimension numbers over an [M, K] left operand, a [K, N] right operand and an [M, N] result that
  contract the left operand's second axis against the right operand's first (stated as four coordinate facts
  about the dimension numbers' operand indices, which a literal record proves by unfolding), entry (p, c) of
  the host's product of X and W is the sum over k of X p k · W k c. General in M, K, N and in both operand
  formats; nothing in it is specific to one program.
-/
import Idealize.ShloMosaic.Lib.ValueIdx
import Idealize.ShloMosaic.PureOps.Ideal.Laws

noncomputable section

namespace Cert.LibDotGeneral

open Idealize.ShloMosaic Idealize.ShloMosaic.ValueIdx

/-- For dimension numbers contracting the left operand's columns against the right operand's rows
    (the four coordinate facts hl0 … hr1 say so), entry (p, c) of the host's product is Σ_k X p k · W k c. -/
theorem dotGeneral_rowcol {M K N : Nat} {φ₁ φ₂ : FTy}
    (D : DotDims ⟨2, ![M, K]⟩ ⟨2, ![K, N]⟩ ⟨2, ![M, N]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision)
    (X : FVec Ideal ⟨2, ![M, K]⟩ φ₁) (W : FVec Ideal ⟨2, ![K, N]⟩ φ₂) (p : Fin M) (c : Fin N) :
    Host.dotGeneral D prec X W (ix2 p c) = ∑ k : Fin K, X (ix2 p k) * W (ix2 k c) := by
  refine (Ideal.dotGeneral_apply D prec .single X W (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibDotGeneral

end
-- ==== Proof.Entries.lean ====
/-
  The six kernel bodies and the reference's dense stages, read at one entry, at the ideal values.

  A matmul body rounds its two loaded blocks to bf16 (the identity on the extended reals) and multiplies them
  into a zero accumulator: entry (r, q) of what it stores is Σ_k x r k · w k q. The reference's dot_general of the
  whole arrays at entry (p, q) is Σ_k X p k · W k q, the same sum when x is rows of X. A bias body adds row 0 of
  its [1, n] bias block to every row of its block and, in the first two layers, takes the maximum with zero:
  entry (r, q) is max (x r q + b 0 q) 0, respectively x r q + b 0 q; the reference adds the bias vector broadcast
  along the rows and applies relu: the same expression of the same entries.
-/
import proofs.«151111_j11312943858128_1_alg».proof.Proof.Gen.KernelIdeal.Skeleton
import proofs.«151111_j11312943858128_1_alg».proof.Proof.Gen.ReferenceIdeal.Read
import proofs.«151111_j11312943858128_1_alg».proof.Proof.LibMatmulRowCol
import proofs.«151111_j11312943858128_1_alg».proof.Proof.LibDotGeneralRowCol
import Idealize.ShloMosaic.Lib.ValueIdx
import Idealize.ShloMosaic.Lib.Pipeline.Value
import Idealize.ShloMosaic.PureOps.Ideal.Laws

noncomputable section

namespace Cert.KernelIdeal.Entry

open Idealize.ShloMosaic Idealize.ShloMosaic.ValueIdx Cert.KernelIdeal Cert.KernelIdeal.Gen

/-! ## The dimension numbers: left columns against right rows -/

theorem kd128_l0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem kd128_l1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem kd128_r0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem kd128_r1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem kd64_l0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem kd64_l1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem kd64_r0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem kd64_r1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

theorem rd128_l0 (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem rd128_l1 (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem rd128_r0 (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem rd128_r1 (i : Cert.ReferenceIdeal.S50000x128.Idx) (q : Cert.ReferenceIdeal.dot_S50000x128_S128x128_S50000x128_1_0_0_1_n_n.contr.Idx) : (Cert.ReferenceIdeal.dot_S50000x128_S128x128_S50000x128_1_0_0_1_n_n.rhsIdx i q 1).val = (i 1).val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

theorem rd64_l0 (i : Cert.ReferenceIdeal.S50000x64.Idx) (q : Cert.ReferenceIdeal.dot_S50000x128_S128x64_S50000x64_1_0_0_1_n_n.contr.Idx) : (Cert.ReferenceIdeal.dot_S50000x128_S128x64_S50000x64_1_0_0_1_n_n.lhsIdx i q 0).val = (i 0).val := by
  unfold DotDims.lhsIdx
  rw [dif_neg (show ¬(0 : Fin Cert.ReferenceIdeal.S50000x128.rank) ∈ Cert.ReferenceIdeal.dot_S50000x128_S128x64_S50000x64_1_0_0_1_n_n.lhsBatch by decide), dif_pos (show (0 : Fin Cert.ReferenceIdeal.S50000x128.rank) ∈ Cert.ReferenceIdeal.dot_S50000x128_S128x64_S50000x64_1_0_0_1_n_n.lhsNonContracting by decide)]
  rfl
theorem rd64_l1 (i : Cert.ReferenceIdeal.S50000x64.Idx) (q : Cert.ReferenceIdeal.dot_S50000x128_S128x64_S50000x64_1_0_0_1_n_n.contr.Idx) : (Cert.ReferenceIdeal.dot_S50000x128_S128x64_S50000x64_1_0_0_1_n_n.lhsIdx i q 1).val = (q ⟨0, by decide⟩).val :=
  Cert.ReferenceIdeal.dot_S50000x128_S128x64_S50000x64_1_0_0_1_n_n.lhsIdx_val_of_single rfl i q
theorem rd64_r0 (i : Cert.ReferenceIdeal.S50000x64.Idx) (q : Cert.ReferenceIdeal.dot_S50000x128_S128x64_S50000x64_1_0_0_1_n_n.contr.Idx) : (Cert.ReferenceIdeal.dot_S50000x128_S128x64_S50000x64_1_0_0_1_n_n.rhsIdx i q 0).val = (q ⟨0, by decide⟩).val :=
  Cert.ReferenceIdeal.dot_S50000x128_S128x64_S50000x64_1_0_0_1_n_n.rhsIdx_val_of_single rfl i q
theorem rd64_r1 (i : Cert.ReferenceIdeal.S50000x64.Idx) (q : Cert.ReferenceIdeal.dot_S50000x128_S128x64_S50000x64_1_0_0_1_n_n.contr.Idx) : (Cert.ReferenceIdeal.dot_S50000x128_S128x64_S50000x64_1_0_0_1_n_n.rhsIdx i q 1).val = (i 1).val := by
  unfold DotDims.rhsIdx
  rw [dif_neg (show ¬(1 : Fin Cert.ReferenceIdeal.S128x64.rank) ∈ Cert.ReferenceIdeal.dot_S50000x128_S128x64_S50000x64_1_0_0_1_n_n.rhsBatch by decide), dif_pos (show (1 : Fin Cert.ReferenceIdeal.S128x64.rank) ∈ Cert.ReferenceIdeal.dot_S50000x128_S128x64_S50000x64_1_0_0_1_n_n.rhsNonContracting by decide)]
  rfl

/-! ## The matmul bodies at an entry -/

/-- Layer 1's matmul body: entry (r, q) of the stored block is Σ_k x r k · w k q. -/
theorem mm0_entry (x0 : Vec Ideal S5000x128 .f32) (x1 : Vec Ideal S128x128 .f32) (r : Fin 5000) (q : Fin 128) :
    k0_pay1 x0 x1 (ix2 r q) = ∑ k : Fin 128, x0 (ix2 r k) * x1 (ix2 k q) :=
  Cert.LibMatmul.matmul_rowcol dot_S5000x128_S128x128_S5000x128_1_0_0_1_n_n rfl rfl kd128_l0 kd128_l1 kd128_r0 kd128_r1
    (truncf .bf16 x0 bitsLt_bf16_f32) (truncf .bf16 x1 bitsLt_bf16_f32) r q

/-- Layer 2's matmul body casts its block to its own shape first: the same sum. -/
theorem mm2_entry (x0 : Vec Ideal S5000x128 .f32) (x1 : Vec Ideal S128x128 .f32) (r : Fin 5000) (q : Fin 128) :
    k2_pay1 x0 x1 (ix2 r q) = ∑ k : Fin 128, x0 (ix2 r k) * x1 (ix2 k q) := by
  unfold k2_pay1
  rw [shapeCast_self]
  exact mm0_entry x0 x1 r q

/-- Layer 3's matmul body, into 64 columns. -/
theorem mm4_entry (x0 : Vec Ideal S5000x128 .f32) (x1 : Vec Ideal S128x64 .f32) (r : Fin 5000) (q : Fin 64) :
    k4_pay1 x0 x1 (ix2 r q) = ∑ k : Fin 128, x0 (ix2 r k) * x1 (ix2 k q) := by
  unfold k4_pay1
  rw [shapeCast_self]
  exact Cert.LibMatmul.matmul_rowcol dot_S5000x128_S128x64_S5000x64_1_0_0_1_n_n rfl rfl kd64_l0 kd64_l1 kd64_r0 kd64_r1
    (truncf .bf16 x0 bitsLt_bf16_f32) (truncf .bf16 x1 bitsLt_bf16_f32) r q

/-- The reference's product of whole [50000, 128] and [128, 128] arrays at entry (p, q). -/
theorem host128_entry (X : Cert.ReferenceIdeal.S50000x128.Idx → EReal) (W : Cert.ReferenceIdeal.S128x128.Idx → EReal) (p : Fin 50000) (q : Fin 128) :
    Cert.ReferenceIdeal.Read.val_main_v12 (F := Ideal) X W (ix2 p q) = ∑ k : Fin 128, X (ix2 p k) * W (ix2 k q) :=
  Cert.LibDotGeneral.dotGeneral_rowcol Cert.ReferenceIdeal.dot_S50000x128_S128x128_S50000x128_1_0_0_1_n_n rfl rfl rd128_l0 rd128_l1 rd128_r0 rd128_r1 none X W p q

/-- The reference's [50000, 128] by [128, 64] product, as a function of any two operands. -/
def host64 (X : Cert.ReferenceIdeal.S50000x128.Idx → EReal) (W : Cert.ReferenceIdeal.S128x64.Idx → EReal) : Cert.ReferenceIdeal.S50000x64.Idx → EReal :=
  Host.dotGeneral (F := Ideal) (φ₁ := .f32) (φ₂ := .f32) Cert.ReferenceIdeal.dot_S50000x128_S128x64_S50000x64_1_0_0_1_n_n none X W

theorem host64_entry (X : Cert.ReferenceIdeal.S50000x128.Idx → EReal) (W : Cert.ReferenceIdeal.S128x64.Idx → EReal) (p : Fin 50000) (q : Fin 64) :
    host64 X W (ix2 p q) = ∑ k : Fin 128, X (ix2 p k) * W (ix2 k q) := by
  unfold host64
  exact Cert.LibDotGeneral.dotGeneral_rowcol Cert.ReferenceIdeal.dot_S50000x128_S128x64_S50000x64_1_0_0_1_n_n rfl rfl rd64_l0 rd64_l1 rd64_r0 rd64_r1 none X W p q

/-! ## The bias bodies at an entry -/

/-- A [1, n] block broadcast along 5000 rows reads row 0. -/
theorem bcast_rows128 (x1 : Vec Ideal S1x128 .f32) (r : Fin 5000) (q : Fin 128) :
    broadcastTo S5000x128 x1 broadcasts_S1x128_S5000x128 (ix2 r q) = x1 (ix2 (0 : Fin 1) q) :=
  broadcastTo_apply x1 broadcasts_S1x128_S5000x128 (ix2 r q) (ix2 (0 : Fin 1) q) (fun a => match a with
    | ⟨0, _⟩ => by show (0 : Nat) = if (1 : Nat) = 1 then 0 else _; rw [if_pos rfl]
    | ⟨1, _⟩ => by show q.val = if (128 : Nat) = 1 then 0 else _; rw [if_neg (by decide)]; rfl)

theorem bcast_rows64 (x1 : Vec Ideal S1x64 .f32) (r : Fin 5000) (q : Fin 64) :
    broadcastTo S5000x64 x1 broadcasts_S1x64_S5000x64 (ix2 r q) = x1 (ix2 (0 : Fin 1) q) :=
  broadcastTo_apply x1 broadcasts_S1x64_S5000x64 (ix2 r q) (ix2 (0 : Fin 1) q) (fun a => match a with
    | ⟨0, _⟩ => by show (0 : Nat) = if (1 : Nat) = 1 then 0 else _; rw [if_pos rfl]
    | ⟨1, _⟩ => by show q.val = if (64 : Nat) = 1 then 0 else _; rw [if_neg (by decide)]; rfl)

/-- Layer 1's bias body: max (x r q + b 0 q) 0. -/
theorem bias1_entry (x0 : Vec Ideal S5000x128 .f32) (x1 : Vec Ideal S1x128 .f32) (r : Fin 5000) (q : Fin 128) :
    k1_pay1 x0 x1 (ix2 r q) = max (x0 (ix2 r q) + x1 (ix2 (0 : Fin 1) q)) (Ideal.ofBits .f32 0x00000000#32) := by
  unfold k1_pay1
  rw [shapeCast_self, shapeCast_self]
  show max (x0 (ix2 r q) + broadcastTo S5000x128 x1 broadcasts_S1x128_S5000x128 (ix2 r q)) _ = _
  rw [bcast_rows128]
  rfl

/-- Layer 2's bias body: the same. -/
theorem bias3_entry (x0 : Vec Ideal S5000x128 .f32) (x1 : Vec Ideal S1x128 .f32) (r : Fin 5000) (q : Fin 128) :
    k3_pay1 x0 x1 (ix2 r q) = max (x0 (ix2 r q) + x1 (ix2 (0 : Fin 1) q)) (Ideal.ofBits .f32 0x00000000#32) :=
  bias1_entry x0 x1 r q

/-- Layer 3's bias body: x r q + b 0 q, no maximum. -/
theorem bias5_entry (x0 : Vec Ideal S5000x64 .f32) (x1 : Vec Ideal S1x64 .f32) (r : Fin 5000) (q : Fin 64) :
    k5_pay1 x0 x1 (ix2 r q) = x0 (ix2 r q) + x1 (ix2 (0 : Fin 1) q) := by
  unfold k5_pay1
  rw [shapeCast_self, shapeCast_self]
  show x0 (ix2 r q) + broadcastTo S5000x64 x1 broadcasts_S1x64_S5000x64 (ix2 r q) = _
  rw [bcast_rows64]

/-! ## The reference's bias stages at an entry, over a [1, n] bias row -/

/-- The reference's bias-and-relu of a whole [50000, 128] array and a [1, 128] row. -/
def refBiasRelu (A : Cert.ReferenceIdeal.S50000x128.Idx → EReal) (B : Cert.ReferenceIdeal.S1x128.Idx → EReal) : Cert.ReferenceIdeal.S50000x128.Idx → EReal :=
  maximumf (F := Ideal) (φ := .f32) (addf (F := Ideal) (φ := .f32) A (broadcastInDim Cert.ReferenceIdeal.S50000x128 ![0, 1] Cert.ReferenceIdeal.Gen.bcast_S1x128_S50000x128_0_1 B))
    (Cert.ReferenceIdeal.Read.val_main_call0_v0 (F := Ideal))

theorem refBiasRelu_entry (A : Cert.ReferenceIdeal.S50000x128.Idx → EReal) (B : Cert.ReferenceIdeal.S1x128.Idx → EReal) (p : Fin 50000) (q : Fin 128) :
    refBiasRelu A B (ix2 p q) = max (A (ix2 p q) + B (ix2 (0 : Fin 1) q)) (Ideal.ofBits .f32 0x00000000#32) := by
  unfold refBiasRelu
  show max (A (ix2 p q) + broadcastInDim Cert.ReferenceIdeal.S50000x128 ![0, 1] Cert.ReferenceIdeal.Gen.bcast_S1x128_S50000x128_0_1 B (ix2 p q)) _ = _
  rw [broadcastInDim_apply _ Cert.ReferenceIdeal.Gen.bcast_S1x128_S50000x128_0_1 B (ix2 p q) (ix2 (0 : Fin 1) q) (fun a => match a with
    | ⟨0, _⟩ => by show (0 : Nat) = if (1 : Nat) = 1 then 0 else _; rw [if_pos rfl]
    | ⟨1, _⟩ => by show q.val = if (128 : Nat) = 1 then 0 else _; rw [if_neg (by decide)]; rfl)]
  rfl

/-- The reference's last bias stage of a whole [50000, 64] array and a [1, 64] row. -/
def refBias64 (A : Cert.ReferenceIdeal.S50000x64.Idx → EReal) (B : Cert.ReferenceIdeal.S1x64.Idx → EReal) : Cert.ReferenceIdeal.S50000x64.Idx → EReal :=
  addf (F := Ideal) (φ := .f32) A (broadcastInDim Cert.ReferenceIdeal.S50000x64 ![0, 1] Cert.ReferenceIdeal.Gen.bcast_S1x64_S50000x64_0_1 B)

theorem refBias64_entry (A : Cert.ReferenceIdeal.S50000x64.Idx → EReal) (B : Cert.ReferenceIdeal.S1x64.Idx → EReal) (p : Fin 50000) (q : Fin 64) :
    refBias64 A B (ix2 p q) = A (ix2 p q) + B (ix2 (0 : Fin 1) q) := by
  unfold refBias64
  show A (ix2 p q) + broadcastInDim Cert.ReferenceIdeal.S50000x64 ![0, 1] Cert.ReferenceIdeal.Gen.bcast_S1x64_S50000x64_0_1 B (ix2 p q) = _
  rw [broadcastInDim_apply _ Cert.ReferenceIdeal.Gen.bcast_S1x64_S50000x64_0_1 B (ix2 p q) (ix2 (0 : Fin 1) q) (fun a => match a with
    | ⟨0, _⟩ => by show (0 : Nat) = if (1 : Nat) = 1 then 0 else _; rw [if_pos rfl]
    | ⟨1, _⟩ => by show q.val = if (64 : Nat) = 1 then 0 else _; rw [if_neg (by decide)]; rfl)]

/-- A length-n vector reshaped to one row is the vector broadcast into the row's second axis. -/
theorem reshape_row128 {α : Type} (b : Cert.ReferenceIdeal.S128.Idx → α) :
    shapeCast S1x128 b shapeCasts_S128_S1x128 = broadcastInDim Cert.ReferenceIdeal.S1x128 ![1] Cert.ReferenceIdeal.Gen.bcast_S128_S1x128_1 b := by
  funext j
  obtain ⟨z, q, rfl⟩ : ∃ (z : Fin 1) (q : Fin 128), j = ix2 z q := ⟨j 0, j 1, eq_ix2 j⟩
  rw [shapeCast_apply b shapeCasts_S128_S1x128 (ix2 z q) (ix1 q) (by rewrite [Shape.rowMajor_val_two, Shape.rowMajor_val_one]; show q.val = z.val * 128 + q.val; have := z.isLt; omega),
    broadcastInDim_apply _ Cert.ReferenceIdeal.Gen.bcast_S128_S1x128_1 b (ix2 z q) (ix1 q) (fun a => match a with
      | ⟨0, _⟩ => by show q.val = if (128 : Nat) = 1 then 0 else _; rw [if_neg (by decide)]; rfl)]

theorem reshape_row64 {α : Type} (b : Cert.ReferenceIdeal.S64.Idx → α) :
    shapeCast S1x64 b shapeCasts_S64_S1x64 = broadcastInDim Cert.ReferenceIdeal.S1x64 ![1] Cert.ReferenceIdeal.Gen.bcast_S64_S1x64_1 b := by
  funext j
  obtain ⟨z, q, rfl⟩ : ∃ (z : Fin 1) (q : Fin 64), j = ix2 z q := ⟨j 0, j 1, eq_ix2 j⟩
  rw [shapeCast_apply b shapeCasts_S64_S1x64 (ix2 z q) (ix1 q) (by rewrite [Shape.rowMajor_val_two, Shape.rowMajor_val_one]; show q.val = z.val * 64 + q.val; have := z.isLt; omega),
    broadcastInDim_apply _ Cert.ReferenceIdeal.Gen.bcast_S64_S1x64_1 b (ix2 z q) (ix1 q) (fun a => match a with
      | ⟨0, _⟩ => by show q.val = if (64 : Nat) = 1 then 0 else _; rw [if_neg (by decide)]; rfl)]

end Cert.KernelIdeal.Entry

end
-- ==== Proof.Regions.lean ====
/-
  What each of the six pipelined calls leaves in its output array, as one function of the arrays the call finds.

  Every call runs over ten grid points; point t fetches rows 5000·t … 5000·t + 4999 of its first operand, the whole of
  its second, and writes back rows 5000·t … of its result. The ten row blocks tile the 50000 rows, so the result
  array ends as the one whole-array function whose block t is what point t wrote: for a matmul call the reference's
  dot_general of the two operand arrays (row p of the product depends on row p of the left operand only, and p's
  row block holds it), for a bias call the reference's bias stage of the operand array and the bias row.
-/
import proofs.«151111_j11312943858128_1_alg».proof.Proof.Gen.KernelIdeal.Frame
import proofs.«151111_j11312943858128_1_alg».proof.Proof.Entries
import Idealize.ShloMosaic.Lib.Pipeline.Value
import Idealize.ShloMosaic.Lib.ValueIdx

set_option maxRecDepth 16384

noncomputable section

namespace Cert.KernelIdeal.Tiles

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Entry

variable (V : (c : Dev nD) → (b : Ref sig .tc) → Buf (Elt Ideal) ((c : Thread nD τ).loc b))

theorem hz : (![0, 0] : Fin 2 → Nat) = fun _ => 0 := funext fun a => by fin_cases a <;> rfl

/-! ## Call 0: a matmul -/

/-- The index maps over the grid: the row-block windows sit at block (t, 0), the weight window at (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt0 (t : Fin cfg0.N) : t.val < 10 := Nat.lt_of_lt_of_eq t.isLt (show cfg0.N = 10 from N_0)

/-- The left operand's block at point t is rows 5000·t … of its array. -/
theorem blk0_0 (c : Dev nD) (t : Fin cfg0.N) (r : Fin 5000) (k : Fin 128) (i : S50000x128.Idx)
    (hi0 : (i 0).val = 5000 * t.val + r.val) (hi1 : (i 1).val = k.val) :
    (iblk0 V c 0 t : Vec Ideal S5000x128 .f32) (ix2 r k) = (V c main_arg0 : S50000x128.Idx → EReal) i := by
  obtain ⟨e0, e1, -, -, -, -⟩ := idx0 t
  unfold iblk0
  rw [View.read_apply]
  show V c main_arg0 _ = V c main_arg0 i
  refine congrArg (V c main_arg0) ?_
  funext a
  apply Fin.ext
  match a with
  | ⟨0, _⟩ => show win0_0.index t (0 : Fin 2) * 5000 + 1 * r.val = (i 0).val; rw [e0, hi0]; omega
  | ⟨1, _⟩ => show win0_0.index t (1 : Fin 2) * 128 + 1 * k.val = (i 1).val; rw [e1, hi1]; omega

/-- The right operand's block is its whole array at every point. -/
theorem blk0_1 (c : Dev nD) (t : Fin cfg0.N) (k : Fin 128) (q : Fin 128) :
    (iblk0 V c 1 t : Vec Ideal S128x128 .f32) (ix2 k q) = (V c main_arg2 : S128x128.Idx → EReal) (ix2 k q) := by
  obtain ⟨-, -, e2, e3, -, -⟩ := idx0 t
  unfold iblk0
  rw [View.read_apply]
  show V c main_arg2 _ = V c main_arg2 (ix2 k q)
  refine congrArg (V c main_arg2) ?_
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What point t writes back is block t of the product of the two operand arrays. -/
theorem flushed0 (c : Dev nD) (t : Fin cfg0.N) :
    (dat0 V c).flushed 2 t = ((cfg0.win 2).blk t).view.read (Elt Ideal) (Cert.ReferenceIdeal.Read.val_main_v12 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨-, -, -, -, e4, e5⟩ := idx0 t
  have ht := lt0 t
  funext j
  have hj0 : (j 0).val < 5000 := (j 0).isLt
  have hj1 : (j 1).val < 128 := (j 1).isLt
  obtain ⟨r, q, rfl⟩ : ∃ (r : Fin 5000) (q : Fin 128), j = ix2 r q := ⟨⟨(j 0).val, hj0⟩, ⟨(j 1).val, hj1⟩, by funext a; match a with | ⟨0, _⟩ => rfl | ⟨1, _⟩ => rfl⟩
  have hemb : ((cfg0.win 2).blk t).view.emb (ix2 r q) = (ix2 (⟨5000 * t.val + r.val, by have := r.isLt; omega⟩ : Fin 50000) q : S50000x128.Idx) := by
    funext a
    apply Fin.ext
    match a with
    | ⟨0, _⟩ => show win0_2.index t (0 : Fin 2) * 5000 + 1 * r.val = 5000 * t.val + r.val; rw [e4]; omega
    | ⟨1, _⟩ => show win0_2.index t (1 : Fin 2) * 128 + 1 * q.val = q.val; rw [e5]; omega
  show k0_pay1 (iblk0 V c 0 t) (iblk0 V c 1 t) (ix2 r q) = Cert.ReferenceIdeal.Read.val_main_v12 (F := Ideal) (V c main_arg0) (V c main_arg2) (((cfg0.win 2).blk t).view.emb (ix2 r q))
  rw [hemb]
  refine (mm0_entry (iblk0 V c 0 t) (iblk0 V c 1 t) r q).trans ?_
  refine Eq.trans ?_ (host128_entry (V c main_arg0) (V c main_arg2) _ q).symm
  refine Finset.sum_congr rfl fun k _ => ?_
  rw [blk0_0 V c t r k (ix2 (⟨5000 * t.val + r.val, by have := r.isLt; omega⟩ : Fin 50000) k) rfl rfl, blk0_1 V c t k q]

/-- An index of the result array is in point t's block iff each coordinate is in the block's range. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v27).slice (win0_2.rect t)).set ↔ _
  rw [View.set_slice_whole, Rect.mem_set_unit]
  exact Iff.rfl

/-- Row p lies in the block of point p / 5000. -/
theorem cover0 (i : S50000x128.Idx) : ∃ t : Fin cfg0.N, (cfg0.win 2).flush t = true ∧ i ∈ ((cfg0.win 2).blk t).view.set := by
  have h0 : (i 0).val < 50000 := (i 0).isLt
  have h1 : (i 1).val < 128 := (i 1).isLt
  obtain ⟨-, -, -, -, e4, e5⟩ := idx0 ⟨(i 0).val / 5000, by rw [show cfg0.N = 10 from N_0]; omega⟩
  refine ⟨⟨(i 0).val / 5000, by rw [show cfg0.N = 10 from N_0]; omega⟩, flush0_2 _, ?_⟩
  rw [mem_blk0]
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 128 ≤ (i 1).val ∧ (i 1).val < win0_2.index _ (1 : Fin 2) * 128 + 128; rw [e5]; omega

/-- The result array after call 0: the product of the two operand arrays as the call finds them. -/
theorem final0 (c : Dev nD) : (dat0 V c).arrAt 2 cfg0.N = Cert.ReferenceIdeal.Read.val_main_v12 (F := Ideal) (V c main_arg0) (V c main_arg2) :=
  (dat0 V c).arrAt_eq_of_cover 2 _ (fun t _ => flushed0 V c t) cover0

/-! ## Call 1: bias and relu -/

/-- The index maps over the grid: the row-block windows sit at block (t, 0), the bias row's window at (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem lt1 (t : Fin cfg1.N) : t.val < 10 := Nat.lt_of_lt_of_eq t.isLt (show cfg1.N = 10 from N_1)

/-- The operand's block at point t is rows 5000·t … of its array. -/
theorem blk1_0 (c : Dev nD) (t : Fin cfg1.N) (r : Fin 5000) (k : Fin 128) (i : S50000x128.Idx)
    (hi0 : (i 0).val = 5000 * t.val + r.val) (hi1 : (i 1).val = k.val) :
    (iblk1 V c 0 t : Vec Ideal S5000x128 .f32) (ix2 r k) = (V c main_v40 : S50000x128.Idx → EReal) i := by
  obtain ⟨e0, e1, -, -, -, -⟩ := idx1 t
  unfold iblk1
  rw [View.read_apply]
  show V c main_v40 _ = V c main_v40 i
  refine congrArg (V c main_v40) ?_
  funext a
  apply Fin.ext
  match a with
  | ⟨0, _⟩ => show win1_0.index t (0 : Fin 2) * 5000 + 1 * r.val = (i 0).val; rw [e0, hi0]; omega
  | ⟨1, _⟩ => show win1_0.index t (1 : Fin 2) * 128 + 1 * k.val = (i 1).val; rw [e1, hi1]; omega

/-- The bias row's block is the whole row at every point. -/
theorem blk1_1 (c : Dev nD) (t : Fin cfg1.N) (z : Fin 1) (q : Fin 128) :
    (iblk1 V c 1 t : Vec Ideal S1x128 .f32) (ix2 z q) = (V c main_v41 : S1x128.Idx → EReal) (ix2 z q) := by
  obtain ⟨-, -, e2, e3, -, -⟩ := idx1 t
  unfold iblk1
  rw [View.read_apply]
  show V c main_v41 _ = V c main_v41 (ix2 z q)
  refine congrArg (V c main_v41) ?_
  funext a
  apply Fin.ext
  match a with
  | ⟨0, _⟩ => show win1_1.index t (0 : Fin 2) * 1 + 1 * z.val = z.val; rw [e2]; omega
  | ⟨1, _⟩ => show win1_1.index t (1 : Fin 2) * 128 + 1 * q.val = q.val; rw [e3]; omega

/-- What point t writes back is block t of the reference's bias stage of the operand array and the bias row. -/
theorem flushed1 (c : Dev nD) (t : Fin cfg1.N) :
    (dat1 V c).flushed 2 t = ((cfg1.win 2).blk t).view.read (Elt Ideal) (refBiasRelu (V c main_v40) (V c main_v41)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨-, -, -, -, e4, e5⟩ := idx1 t
  have ht := lt1 t
  funext j
  have hj0 : (j 0).val < 5000 := (j 0).isLt
  have hj1 : (j 1).val < 128 := (j 1).isLt
  obtain ⟨r, q, rfl⟩ : ∃ (r : Fin 5000) (q : Fin 128), j = ix2 r q := ⟨⟨(j 0).val, hj0⟩, ⟨(j 1).val, hj1⟩, by funext a; match a with | ⟨0, _⟩ => rfl | ⟨1, _⟩ => rfl⟩
  have hemb : ((cfg1.win 2).blk t).view.emb (ix2 r q) = (ix2 (⟨5000 * t.val + r.val, by have := r.isLt; omega⟩ : Fin 50000) q : S50000x128.Idx) := by
    funext a
    apply Fin.ext
    match a with
    | ⟨0, _⟩ => show win1_2.index t (0 : Fin 2) * 5000 + 1 * r.val = 5000 * t.val + r.val; rw [e4]; omega
    | ⟨1, _⟩ => show win1_2.index t (1 : Fin 2) * 128 + 1 * q.val = q.val; rw [e5]; omega
  show k1_pay1 (iblk1 V c 0 t) (iblk1 V c 1 t) (ix2 r q) = refBiasRelu (V c main_v40) (V c main_v41) (((cfg1.win 2).blk t).view.emb (ix2 r q))
  rw [hemb]
  refine (bias1_entry (iblk1 V c 0 t) (iblk1 V c 1 t) r q).trans ?_
  refine Eq.trans ?_ (refBiasRelu_entry (V c main_v40) (V c main_v41) _ q).symm
  rw [blk1_0 V c t r q (ix2 (⟨5000 * t.val + r.val, by have := r.isLt; omega⟩ : Fin 50000) q) rfl rfl, blk1_1 V c t 0 q]

/-- An index of the result array is in point t's block iff each coordinate is in the block's range. -/
theorem mem_blk1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v42).slice (win1_2.rect t)).set ↔ _
  rw [View.set_slice_whole, Rect.mem_set_unit]
  exact Iff.rfl

/-- Row p lies in the block of point p / 5000. -/
theorem cover1 (i : S50000x128.Idx) : ∃ t : Fin cfg1.N, (cfg1.win 2).flush t = true ∧ i ∈ ((cfg1.win 2).blk t).view.set := by
  have h0 : (i 0).val < 50000 := (i 0).isLt
  have h1 : (i 1).val < 128 := (i 1).isLt
  obtain ⟨-, -, -, -, e4, e5⟩ := idx1 ⟨(i 0).val / 5000, by rw [show cfg1.N = 10 from N_1]; omega⟩
  refine ⟨⟨(i 0).val / 5000, by rw [show cfg1.N = 10 from N_1]; omega⟩, flush1_2 _, ?_⟩
  rw [mem_blk1]
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ (i 0).val ∧ (i 0).val < (i 0).val / 5000 * 5000 + 5000; omega
  | ⟨1, _⟩ => show win1_2.index _ (1 : Fin 2) * 128 ≤ (i 1).val ∧ (i 1).val < win1_2.index _ (1 : Fin 2) * 128 + 128; rw [e5]; omega

/-- The result array after call 1: the bias stage of the operand array and the bias row as the call finds them. -/
theorem final1 (c : Dev nD) : (dat1 V c).arrAt 2 cfg1.N = refBiasRelu (V c main_v40) (V c main_v41) :=
  (dat1 V c).arrAt_eq_of_cover 2 _ (fun t _ => flushed1 V c t) cover1

/-! ## Call 2: a matmul -/

/-- The index maps over the grid: the row-block windows sit at block (t, 0), the weight window at (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem lt2 (t : Fin cfg2.N) : t.val < 10 := Nat.lt_of_lt_of_eq t.isLt (show cfg2.N = 10 from N_2)

/-- The left operand's block at point t is rows 5000·t … of its array. -/
theorem blk2_0 (c : Dev nD) (t : Fin cfg2.N) (r : Fin 5000) (k : Fin 128) (i : S50000x128.Idx)
    (hi0 : (i 0).val = 5000 * t.val + r.val) (hi1 : (i 1).val = k.val) :
    (iblk2 V c 0 t : Vec Ideal S5000x128 .f32) (ix2 r k) = (V c main_v42 : S50000x128.Idx → EReal) i := by
  obtain ⟨e0, e1, -, -, -, -⟩ := idx2 t
  unfold iblk2
  rw [View.read_apply]
  show V c main_v42 _ = V c main_v42 i
  refine congrArg (V c main_v42) ?_
  funext a
  apply Fin.ext
  match a with
  | ⟨0, _⟩ => show win2_0.index t (0 : Fin 2) * 5000 + 1 * r.val = (i 0).val; rw [e0, hi0]; omega
  | ⟨1, _⟩ => show win2_0.index t (1 : Fin 2) * 128 + 1 * k.val = (i 1).val; rw [e1, hi1]; omega

/-- The right operand's block is its whole array at every point. -/
theorem blk2_1 (c : Dev nD) (t : Fin cfg2.N) (k : Fin 128) (q : Fin 128) :
    (iblk2 V c 1 t : Vec Ideal S128x128 .f32) (ix2 k q) = (V c main_arg4 : S128x128.Idx → EReal) (ix2 k q) := by
  obtain ⟨-, -, e2, e3, -, -⟩ := idx2 t
  unfold iblk2
  rw [View.read_apply]
  show V c main_arg4 _ = V c main_arg4 (ix2 k q)
  refine congrArg (V c main_arg4) ?_
  funext a
  apply Fin.ext
  match a with
  | ⟨0, _⟩ => show win2_1.index t (0 : Fin 2) * 128 + 1 * k.val = k.val; rw [e2]; omega
  | ⟨1, _⟩ => show win2_1.index t (1 : Fin 2) * 128 + 1 * q.val = q.val; rw [e3]; omega

/-- What point t writes back is block t of the product of the two operand arrays. -/
theorem flushed2 (c : Dev nD) (t : Fin cfg2.N) :
    (dat2 V c).flushed 2 t = ((cfg2.win 2).blk t).view.read (Elt Ideal) (Cert.ReferenceIdeal.Read.val_main_v12 (F := Ideal) (V c main_v42) (V c main_arg4)) := by
  show (cfg2.win 2).cut (grid2.coords t) ((dat2 V c).after 2 t) = _
  rw [after2_2]
  unfold out2_2
  rw [View.canon_unit_zero hz]
  simp only [View.ld_unit_zero (S := S5000x128) hz, View.ld_unit_zero (S := S128x128) hz]
  obtain ⟨-, -, -, -, e4, e5⟩ := idx2 t
  have ht := lt2 t
  funext j
  have hj0 : (j 0).val < 5000 := (j 0).isLt
  have hj1 : (j 1).val < 128 := (j 1).isLt
  obtain ⟨r, q, rfl⟩ : ∃ (r : Fin 5000) (q : Fin 128), j = ix2 r q := ⟨⟨(j 0).val, hj0⟩, ⟨(j 1).val, hj1⟩, by funext a; match a with | ⟨0, _⟩ => rfl | ⟨1, _⟩ => rfl⟩
  have hemb : ((cfg2.win 2).blk t).view.emb (ix2 r q) = (ix2 (⟨5000 * t.val + r.val, by have := r.isLt; omega⟩ : Fin 50000) q : S50000x128.Idx) := by
    funext a
    apply Fin.ext
    match a with
    | ⟨0, _⟩ => show win2_2.index t (0 : Fin 2) * 5000 + 1 * r.val = 5000 * t.val + r.val; rw [e4]; omega
    | ⟨1, _⟩ => show win2_2.index t (1 : Fin 2) * 128 + 1 * q.val = q.val; rw [e5]; omega
  show k2_pay1 (iblk2 V c 0 t) (iblk2 V c 1 t) (ix2 r q) = Cert.ReferenceIdeal.Read.val_main_v12 (F := Ideal) (V c main_v42) (V c main_arg4) (((cfg2.win 2).blk t).view.emb (ix2 r q))
  rw [hemb]
  refine (mm2_entry (iblk2 V c 0 t) (iblk2 V c 1 t) r q).trans ?_
  refine Eq.trans ?_ (host128_entry (V c main_v42) (V c main_arg4) _ q).symm
  refine Finset.sum_congr rfl fun k _ => ?_
  rw [blk2_0 V c t r k (ix2 (⟨5000 * t.val + r.val, by have := r.isLt; omega⟩ : Fin 50000) k) rfl rfl, blk2_1 V c t k q]

/-- An index of the result array is in point t's block iff each coordinate is in the block's range. -/
theorem mem_blk2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v43).slice (win2_2.rect t)).set ↔ _
  rw [View.set_slice_whole, Rect.mem_set_unit]
  exact Iff.rfl

/-- Row p lies in the block of point p / 5000. -/
theorem cover2 (i : S50000x128.Idx) : ∃ t : Fin cfg2.N, (cfg2.win 2).flush t = true ∧ i ∈ ((cfg2.win 2).blk t).view.set := by
  have h0 : (i 0).val < 50000 := (i 0).isLt
  have h1 : (i 1).val < 128 := (i 1).isLt
  obtain ⟨-, -, -, -, e4, e5⟩ := idx2 ⟨(i 0).val / 5000, by rw [show cfg2.N = 10 from N_2]; omega⟩
  refine ⟨⟨(i 0).val / 5000, by rw [show cfg2.N = 10 from N_2]; omega⟩, flush2_2 _, ?_⟩
  rw [mem_blk2]
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 128 ≤ (i 1).val ∧ (i 1).val < win2_2.index _ (1 : Fin 2) * 128 + 128; rw [e5]; omega

/-- The result array after call 2: the product of the two operand arrays as the call finds them. -/
theorem final2 (c : Dev nD) : (dat2 V c).arrAt 2 cfg2.N = Cert.ReferenceIdeal.Read.val_main_v12 (F := Ideal) (V c main_v42) (V c main_arg4) :=
  (dat2 V c).arrAt_eq_of_cover 2 _ (fun t _ => flushed2 V c t) cover2

/-! ## Call 3: bias and relu -/

/-- The index maps over the grid: the row-block windows sit at block (t, 0), the bias row's window at (0, 0). -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem lt3 (t : Fin cfg3.N) : t.val < 10 := Nat.lt_of_lt_of_eq t.isLt (show cfg3.N = 10 from N_3)

/-- The operand's block at point t is rows 5000·t … of its array. -/
theorem blk3_0 (c : Dev nD) (t : Fin cfg3.N) (r : Fin 5000) (k : Fin 128) (i : S50000x128.Idx)
    (hi0 : (i 0).val = 5000 * t.val + r.val) (hi1 : (i 1).val = k.val) :
    (iblk3 V c 0 t : Vec Ideal S5000x128 .f32) (ix2 r k) = (V c main_v56 : S50000x128.Idx → EReal) i := by
  obtain ⟨e0, e1, -, -, -, -⟩ := idx3 t
  unfold iblk3
  rw [View.read_apply]
  show V c main_v56 _ = V c main_v56 i
  refine congrArg (V c main_v56) ?_
  funext a
  apply Fin.ext
  match a with
  | ⟨0, _⟩ => show win3_0.index t (0 : Fin 2) * 5000 + 1 * r.val = (i 0).val; rw [e0, hi0]; omega
  | ⟨1, _⟩ => show win3_0.index t (1 : Fin 2) * 128 + 1 * k.val = (i 1).val; rw [e1, hi1]; omega

/-- The bias row's block is the whole row at every point. -/
theorem blk3_1 (c : Dev nD) (t : Fin cfg3.N) (z : Fin 1) (q : Fin 128) :
    (iblk3 V c 1 t : Vec Ideal S1x128 .f32) (ix2 z q) = (V c main_v57 : S1x128.Idx → EReal) (ix2 z q) := by
  obtain ⟨-, -, e2, e3, -, -⟩ := idx3 t
  unfold iblk3
  rw [View.read_apply]
  show V c main_v57 _ = V c main_v57 (ix2 z q)
  refine congrArg (V c main_v57) ?_
  funext a
  apply Fin.ext
  match a with
  | ⟨0, _⟩ => show win3_1.index t (0 : Fin 2) * 1 + 1 * z.val = z.val; rw [e2]; omega
  | ⟨1, _⟩ => show win3_1.index t (1 : Fin 2) * 128 + 1 * q.val = q.val; rw [e3]; omega

/-- What point t writes back is block t of the reference's bias stage of the operand array and the bias row. -/
theorem flushed3 (c : Dev nD) (t : Fin cfg3.N) :
    (dat3 V c).flushed 2 t = ((cfg3.win 2).blk t).view.read (Elt Ideal) (refBiasRelu (V c main_v56) (V c main_v57)) := by
  show (cfg3.win 2).cut (grid3.coords t) ((dat3 V c).after 2 t) = _
  rw [after3_2]
  unfold out3_2
  rw [View.canon_unit_zero hz]
  simp only [View.ld_unit_zero (S := S5000x128) hz, View.ld_unit_zero (S := S1x128) hz]
  obtain ⟨-, -, -, -, e4, e5⟩ := idx3 t
  have ht := lt3 t
  funext j
  have hj0 : (j 0).val < 5000 := (j 0).isLt
  have hj1 : (j 1).val < 128 := (j 1).isLt
  obtain ⟨r, q, rfl⟩ : ∃ (r : Fin 5000) (q : Fin 128), j = ix2 r q := ⟨⟨(j 0).val, hj0⟩, ⟨(j 1).val, hj1⟩, by funext a; match a with | ⟨0, _⟩ => rfl | ⟨1, _⟩ => rfl⟩
  have hemb : ((cfg3.win 2).blk t).view.emb (ix2 r q) = (ix2 (⟨5000 * t.val + r.val, by have := r.isLt; omega⟩ : Fin 50000) q : S50000x128.Idx) := by
    funext a
    apply Fin.ext
    match a with
    | ⟨0, _⟩ => show win3_2.index t (0 : Fin 2) * 5000 + 1 * r.val = 5000 * t.val + r.val; rw [e4]; omega
    | ⟨1, _⟩ => show win3_2.index t (1 : Fin 2) * 128 + 1 * q.val = q.val; rw [e5]; omega
  show k3_pay1 (iblk3 V c 0 t) (iblk3 V c 1 t) (ix2 r q) = refBiasRelu (V c main_v56) (V c main_v57) (((cfg3.win 2).blk t).view.emb (ix2 r q))
  rw [hemb]
  refine (bias3_entry (iblk3 V c 0 t) (iblk3 V c 1 t) r q).trans ?_
  refine Eq.trans ?_ (refBiasRelu_entry (V c main_v56) (V c main_v57) _ q).symm
  rw [blk3_0 V c t r q (ix2 (⟨5000 * t.val + r.val, by have := r.isLt; omega⟩ : Fin 50000) q) rfl rfl, blk3_1 V c t 0 q]

/-- An index of the result array is in point t's block iff each coordinate is in the block's range. -/
theorem mem_blk3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v58).slice (win3_2.rect t)).set ↔ _
  rw [View.set_slice_whole, Rect.mem_set_unit]
  exact Iff.rfl

/-- Row p lies in the block of point p / 5000. -/
theorem cover3 (i : S50000x128.Idx) : ∃ t : Fin cfg3.N, (cfg3.win 2).flush t = true ∧ i ∈ ((cfg3.win 2).blk t).view.set := by
  have h0 : (i 0).val < 50000 := (i 0).isLt
  have h1 : (i 1).val < 128 := (i 1).isLt
  obtain ⟨-, -, -, -, e4, e5⟩ := idx3 ⟨(i 0).val / 5000, by rw [show cfg3.N = 10 from N_3]; omega⟩
  refine ⟨⟨(i 0).val / 5000, by rw [show cfg3.N = 10 from N_3]; omega⟩, flush3_2 _, ?_⟩
  rw [mem_blk3]
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ (i 0).val ∧ (i 0).val < (i 0).val / 5000 * 5000 + 5000; omega
  | ⟨1, _⟩ => show win3_2.index _ (1 : Fin 2) * 128 ≤ (i 1).val ∧ (i 1).val < win3_2.index _ (1 : Fin 2) * 128 + 128; rw [e5]; omega

/-- The result array after call 3: the bias stage of the operand array and the bias row as the call finds them. -/
theorem final3 (c : Dev nD) : (dat3 V c).arrAt 2 cfg3.N = refBiasRelu (V c main_v56) (V c main_v57) :=
  (dat3 V c).arrAt_eq_of_cover 2 _ (fun t _ => flushed3 V c t) cover3

/-! ## Call 4: a matmul -/

/-- The index maps over the grid: the row-block windows sit at block (t, 0), the weight window at (0, 0). -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem lt4 (t : Fin cfg4.N) : t.val < 10 := Nat.lt_of_lt_of_eq t.isLt (show cfg4.N = 10 from N_4)

/-- The left operand's block at point t is rows 5000·t … of its array. -/
theorem blk4_0 (c : Dev nD) (t : Fin cfg4.N) (r : Fin 5000) (k : Fin 128) (i : S50000x128.Idx)
    (hi0 : (i 0).val = 5000 * t.val + r.val) (hi1 : (i 1).val = k.val) :
    (iblk4 V c 0 t : Vec Ideal S5000x128 .f32) (ix2 r k) = (V c main_v58 : S50000x128.Idx → EReal) i := by
  obtain ⟨e0, e1, -, -, -, -⟩ := idx4 t
  unfold iblk4
  rw [View.read_apply]
  show V c main_v58 _ = V c main_v58 i
  refine congrArg (V c main_v58) ?_
  funext a
  apply Fin.ext
  match a with
  | ⟨0, _⟩ => show win4_0.index t (0 : Fin 2) * 5000 + 1 * r.val = (i 0).val; rw [e0, hi0]; omega
  | ⟨1, _⟩ => show win4_0.index t (1 : Fin 2) * 128 + 1 * k.val = (i 1).val; rw [e1, hi1]; omega

/-- The right operand's block is its whole array at every point. -/
theorem blk4_1 (c : Dev nD) (t : Fin cfg4.N) (k : Fin 128) (q : Fin 64) :
    (iblk4 V c 1 t : Vec Ideal S128x64 .f32) (ix2 k q) = (V c main_arg6 : S128x64.Idx → EReal) (ix2 k q) := by
  obtain ⟨-, -, e2, e3, -, -⟩ := idx4 t
  unfold iblk4
  rw [View.read_apply]
  show V c main_arg6 _ = V c main_arg6 (ix2 k q)
  refine congrArg (V c main_arg6) ?_
  funext a
  apply Fin.ext
  match a with
  | ⟨0, _⟩ => show win4_1.index t (0 : Fin 2) * 128 + 1 * k.val = k.val; rw [e2]; omega
  | ⟨1, _⟩ => show win4_1.index t (1 : Fin 2) * 64 + 1 * q.val = q.val; rw [e3]; omega

/-- What point t writes back is block t of the product of the two operand arrays. -/
theorem flushed4 (c : Dev nD) (t : Fin cfg4.N) :
    (dat4 V c).flushed 2 t = ((cfg4.win 2).blk t).view.read (Elt Ideal) (host64 (V c main_v58) (V c main_arg6)) := by
  show (cfg4.win 2).cut (grid4.coords t) ((dat4 V c).after 2 t) = _
  rw [after4_2]
  unfold out4_2
  rw [View.canon_unit_zero hz]
  simp only [View.ld_unit_zero (S := S5000x128) hz, View.ld_unit_zero (S := S128x64) hz]
  obtain ⟨-, -, -, -, e4, e5⟩ := idx4 t
  have ht := lt4 t
  funext j
  have hj0 : (j 0).val < 5000 := (j 0).isLt
  have hj1 : (j 1).val < 64 := (j 1).isLt
  obtain ⟨r, q, rfl⟩ : ∃ (r : Fin 5000) (q : Fin 64), j = ix2 r q := ⟨⟨(j 0).val, hj0⟩, ⟨(j 1).val, hj1⟩, by funext a; match a with | ⟨0, _⟩ => rfl | ⟨1, _⟩ => rfl⟩
  have hemb : ((cfg4.win 2).blk t).view.emb (ix2 r q) = (ix2 (⟨5000 * t.val + r.val, by have := r.isLt; omega⟩ : Fin 50000) q : S50000x64.Idx) := by
    funext a
    apply Fin.ext
    match a with
    | ⟨0, _⟩ => show win4_2.index t (0 : Fin 2) * 5000 + 1 * r.val = 5000 * t.val + r.val; rw [e4]; omega
    | ⟨1, _⟩ => show win4_2.index t (1 : Fin 2) * 64 + 1 * q.val = q.val; rw [e5]; omega
  show k4_pay1 (iblk4 V c 0 t) (iblk4 V c 1 t) (ix2 r q) = host64 (V c main_v58) (V c main_arg6) (((cfg4.win 2).blk t).view.emb (ix2 r q))
  rw [hemb]
  refine (mm4_entry (iblk4 V c 0 t) (iblk4 V c 1 t) r q).trans ?_
  refine Eq.trans ?_ (host64_entry (V c main_v58) (V c main_arg6) _ q).symm
  refine Finset.sum_congr rfl fun k _ => ?_
  rw [blk4_0 V c t r k (ix2 (⟨5000 * t.val + r.val, by have := r.isLt; omega⟩ : Fin 50000) k) rfl rfl, blk4_1 V c t k q]

/-- An index of the result array is in point t's block iff each coordinate is in the block's range. -/
theorem mem_blk4 (t : Fin cfg4.N) (i : S50000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v59).slice (win4_2.rect t)).set ↔ _
  rw [View.set_slice_whole, Rect.mem_set_unit]
  exact Iff.rfl

/-- Row p lies in the block of point p / 5000. -/
theorem cover4 (i : S50000x64.Idx) : ∃ t : Fin cfg4.N, (cfg4.win 2).flush t = true ∧ i ∈ ((cfg4.win 2).blk t).view.set := by
  have h0 : (i 0).val < 50000 := (i 0).isLt
  have h1 : (i 1).val < 64 := (i 1).isLt
  obtain ⟨-, -, -, -, e4, e5⟩ := idx4 ⟨(i 0).val / 5000, by rw [show cfg4.N = 10 from N_4]; omega⟩
  refine ⟨⟨(i 0).val / 5000, by rw [show cfg4.N = 10 from N_4]; omega⟩, flush4_2 _, ?_⟩
  rw [mem_blk4]
  intro a
  match a with
  | ⟨0, _⟩ => show win4_2.index _ (0 : Fin 2) * 5000 ≤ (i 0).val ∧ (i 0).val < win4_2.index _ (0 : Fin 2) * 5000 + 5000; rw [e4]; show (i 0).val / 5000 * 5000 ≤ (i 0).val ∧ (i 0).val < (i 0).val / 5000 * 5000 + 5000; omega
  | ⟨1, _⟩ => show win4_2.index _ (1 : Fin 2) * 64 ≤ (i 1).val ∧ (i 1).val < win4_2.index _ (1 : Fin 2) * 64 + 64; rw [e5]; omega

/-- The result array after call 4: the product of the two operand arrays as the call finds them. -/
theorem final4 (c : Dev nD) : (dat4 V c).arrAt 2 cfg4.N = host64 (V c main_v58) (V c main_arg6) :=
  (dat4 V c).arrAt_eq_of_cover 2 _ (fun t _ => flushed4 V c t) cover4

/-! ## Call 5: the last bias, no relu -/

/-- The index maps over the grid: the row-block windows sit at block (t, 0), the bias row's window at (0, 0). -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem lt5 (t : Fin cfg5.N) : t.val < 10 := Nat.lt_of_lt_of_eq t.isLt (show cfg5.N = 10 from N_5)

/-- The operand's block at point t is rows 5000·t … of its array. -/
theorem blk5_0 (c : Dev nD) (t : Fin cfg5.N) (r : Fin 5000) (k : Fin 64) (i : S50000x64.Idx)
    (hi0 : (i 0).val = 5000 * t.val + r.val) (hi1 : (i 1).val = k.val) :
    (iblk5 V c 0 t : Vec Ideal S5000x64 .f32) (ix2 r k) = (V c main_v72 : S50000x64.Idx → EReal) i := by
  obtain ⟨e0, e1, -, -, -, -⟩ := idx5 t
  unfold iblk5
  rw [View.read_apply]
  show V c main_v72 _ = V c main_v72 i
  refine congrArg (V c main_v72) ?_
  funext a
  apply Fin.ext
  match a with
  | ⟨0, _⟩ => show win5_0.index t (0 : Fin 2) * 5000 + 1 * r.val = (i 0).val; rw [e0, hi0]; omega
  | ⟨1, _⟩ => show win5_0.index t (1 : Fin 2) * 64 + 1 * k.val = (i 1).val; rw [e1, hi1]; omega

/-- The bias row's block is the whole row at every point. -/
theorem blk5_1 (c : Dev nD) (t : Fin cfg5.N) (z : Fin 1) (q : Fin 64) :
    (iblk5 V c 1 t : Vec Ideal S1x64 .f32) (ix2 z q) = (V c main_v73 : S1x64.Idx → EReal) (ix2 z q) := by
  obtain ⟨-, -, e2, e3, -, -⟩ := idx5 t
  unfold iblk5
  rw [View.read_apply]
  show V c main_v73 _ = V c main_v73 (ix2 z q)
  refine congrArg (V c main_v73) ?_
  funext a
  apply Fin.ext
  match a with
  | ⟨0, _⟩ => show win5_1.index t (0 : Fin 2) * 1 + 1 * z.val = z.val; rw [e2]; omega
  | ⟨1, _⟩ => show win5_1.index t (1 : Fin 2) * 64 + 1 * q.val = q.val; rw [e3]; omega

/-- What point t writes back is block t of the reference's bias stage of the operand array and the bias row. -/
theorem flushed5 (c : Dev nD) (t : Fin cfg5.N) :
    (dat5 V c).flushed 2 t = ((cfg5.win 2).blk t).view.read (Elt Ideal) (refBias64 (V c main_v72) (V c main_v73)) := by
  show (cfg5.win 2).cut (grid5.coords t) ((dat5 V c).after 2 t) = _
  rw [after5_2]
  unfold out5_2
  rw [View.canon_unit_zero hz]
  simp only [View.ld_unit_zero (S := S5000x64) hz, View.ld_unit_zero (S := S1x64) hz]
  obtain ⟨-, -, -, -, e4, e5⟩ := idx5 t
  have ht := lt5 t
  funext j
  have hj0 : (j 0).val < 5000 := (j 0).isLt
  have hj1 : (j 1).val < 64 := (j 1).isLt
  obtain ⟨r, q, rfl⟩ : ∃ (r : Fin 5000) (q : Fin 64), j = ix2 r q := ⟨⟨(j 0).val, hj0⟩, ⟨(j 1).val, hj1⟩, by funext a; match a with | ⟨0, _⟩ => rfl | ⟨1, _⟩ => rfl⟩
  have hemb : ((cfg5.win 2).blk t).view.emb (ix2 r q) = (ix2 (⟨5000 * t.val + r.val, by have := r.isLt; omega⟩ : Fin 50000) q : S50000x64.Idx) := by
    funext a
    apply Fin.ext
    match a with
    | ⟨0, _⟩ => show win5_2.index t (0 : Fin 2) * 5000 + 1 * r.val = 5000 * t.val + r.val; rw [e4]; omega
    | ⟨1, _⟩ => show win5_2.index t (1 : Fin 2) * 64 + 1 * q.val = q.val; rw [e5]; omega
  show k5_pay1 (iblk5 V c 0 t) (iblk5 V c 1 t) (ix2 r q) = refBias64 (V c main_v72) (V c main_v73) (((cfg5.win 2).blk t).view.emb (ix2 r q))
  rw [hemb]
  refine (bias5_entry (iblk5 V c 0 t) (iblk5 V c 1 t) r q).trans ?_
  refine Eq.trans ?_ (refBias64_entry (V c main_v72) (V c main_v73) _ q).symm
  rw [blk5_0 V c t r q (ix2 (⟨5000 * t.val + r.val, by have := r.isLt; omega⟩ : Fin 50000) q) rfl rfl, blk5_1 V c t 0 q]

/-- An index of the result array is in point t's block iff each coordinate is in the block's range. -/
theorem mem_blk5 (t : Fin cfg5.N) (i : S50000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v74).slice (win5_2.rect t)).set ↔ _
  rw [View.set_slice_whole, Rect.mem_set_unit]
  exact Iff.rfl

/-- Row p lies in the block of point p / 5000. -/
theorem cover5 (i : S50000x64.Idx) : ∃ t : Fin cfg5.N, (cfg5.win 2).flush t = true ∧ i ∈ ((cfg5.win 2).blk t).view.set := by
  have h0 : (i 0).val < 50000 := (i 0).isLt
  have h1 : (i 1).val < 64 := (i 1).isLt
  obtain ⟨-, -, -, -, e4, e5⟩ := idx5 ⟨(i 0).val / 5000, by rw [show cfg5.N = 10 from N_5]; omega⟩
  refine ⟨⟨(i 0).val / 5000, by rw [show cfg5.N = 10 from N_5]; omega⟩, flush5_2 _, ?_⟩
  rw [mem_blk5]
  intro a
  match a with
  | ⟨0, _⟩ => show win5_2.index _ (0 : Fin 2) * 5000 ≤ (i 0).val ∧ (i 0).val < win5_2.index _ (0 : Fin 2) * 5000 + 5000; rw [e4]; show (i 0).val / 5000 * 5000 ≤ (i 0).val ∧ (i 0).val < (i 0).val / 5000 * 5000 + 5000; omega
  | ⟨1, _⟩ => show win5_2.index _ (1 : Fin 2) * 64 ≤ (i 1).val ∧ (i 1).val < win5_2.index _ (1 : Fin 2) * 64 + 64; rw [e5]; omega

/-- The result array after call 5: the bias stage of the operand array and the bias row as the call finds them. -/
theorem final5 (c : Dev nD) : (dat5 V c).arrAt 2 cfg5.N = refBias64 (V c main_v72) (V c main_v73) :=
  (dat5 V c).arrAt_eq_of_cover 2 _ (fun t _ => flushed5 V c t) cover5

end Cert.KernelIdeal.Tiles

end
-- ==== Proof.Carry.lean ====
/-
  Buffers that later stretches read unchanged. The edge lists (sources, destinations) and the edge weights are
  computed by the first host stretch and read again by the three later ones; a weight matrix or a bias vector is read
  by one call or one stretch deep in the program. No host operation in between writes such a buffer and no call in
  between has it among its three arrays, so its contents at the later boundary are its contents at the earlier one.
-/
import proofs.«151111_j11312943858128_1_alg».proof.Proof.Gen.KernelIdeal.Frame

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-! ## The edge lists and the edge weights -/

theorem W2_main_v3 (c : Dev nD) : W2 m ρ c (Proc.devRef .tc main_v3) = W1 m ρ c (Proc.devRef .tc main_v3) :=
  calc W2 m ρ c (Proc.devRef .tc main_v3)
    _ = W1 m ρ c (Proc.devRef .tc main_v3) := (W2_of_ne m ρ c main_v3 (by decide))

theorem W5_main_v3 (c : Dev nD) : W5 m ρ c (Proc.devRef .tc main_v3) = W1 m ρ c (Proc.devRef .tc main_v3) :=
  calc W5 m ρ c (Proc.devRef .tc main_v3)
    _ = W4 m ρ c (Proc.devRef .tc main_v3) := (W5_of_ne m ρ c main_v3 (by decide))
    _ = W3 m ρ c (Proc.devRef .tc main_v3) := (W4_of_ne m ρ c main_v3 (by decide))
    _ = W2 m ρ c (Proc.devRef .tc main_v3) := (StableHlo.after_of_forall_not_mem (b := Proc.devRef .tc main_v3) hostOps1 (W2 m ρ c) (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_v3) := (W2_of_ne m ρ c main_v3 (by decide))

theorem W8_main_v3 (c : Dev nD) : W8 m ρ c (Proc.devRef .tc main_v3) = W1 m ρ c (Proc.devRef .tc main_v3) :=
  calc W8 m ρ c (Proc.devRef .tc main_v3)
    _ = W7 m ρ c (Proc.devRef .tc main_v3) := (W8_of_ne m ρ c main_v3 (by decide))
    _ = W6 m ρ c (Proc.devRef .tc main_v3) := (W7_of_ne m ρ c main_v3 (by decide))
    _ = W5 m ρ c (Proc.devRef .tc main_v3) := (StableHlo.after_of_forall_not_mem (b := Proc.devRef .tc main_v3) hostOps3 (W5 m ρ c) (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W4 m ρ c (Proc.devRef .tc main_v3) := (W5_of_ne m ρ c main_v3 (by decide))
    _ = W3 m ρ c (Proc.devRef .tc main_v3) := (W4_of_ne m ρ c main_v3 (by decide))
    _ = W2 m ρ c (Proc.devRef .tc main_v3) := (StableHlo.after_of_forall_not_mem (b := Proc.devRef .tc main_v3) hostOps1 (W2 m ρ c) (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_v3) := (W2_of_ne m ρ c main_v3 (by decide))

theorem W2_main_v6 (c : Dev nD) : W2 m ρ c (Proc.devRef .tc main_v6) = W1 m ρ c (Proc.devRef .tc main_v6) :=
  calc W2 m ρ c (Proc.devRef .tc main_v6)
    _ = W1 m ρ c (Proc.devRef .tc main_v6) := (W2_of_ne m ρ c main_v6 (by decide))

theorem W5_main_v6 (c : Dev nD) : W5 m ρ c (Proc.devRef .tc main_v6) = W1 m ρ c (Proc.devRef .tc main_v6) :=
  calc W5 m ρ c (Proc.devRef .tc main_v6)
    _ = W4 m ρ c (Proc.devRef .tc main_v6) := (W5_of_ne m ρ c main_v6 (by decide))
    _ = W3 m ρ c (Proc.devRef .tc main_v6) := (W4_of_ne m ρ c main_v6 (by decide))
    _ = W2 m ρ c (Proc.devRef .tc main_v6) := (StableHlo.after_of_forall_not_mem (b := Proc.devRef .tc main_v6) hostOps1 (W2 m ρ c) (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_v6) := (W2_of_ne m ρ c main_v6 (by decide))

theorem W8_main_v6 (c : Dev nD) : W8 m ρ c (Proc.devRef .tc main_v6) = W1 m ρ c (Proc.devRef .tc main_v6) :=
  calc W8 m ρ c (Proc.devRef .tc main_v6)
    _ = W7 m ρ c (Proc.devRef .tc main_v6) := (W8_of_ne m ρ c main_v6 (by decide))
    _ = W6 m ρ c (Proc.devRef .tc main_v6) := (W7_of_ne m ρ c main_v6 (by decide))
    _ = W5 m ρ c (Proc.devRef .tc main_v6) := (StableHlo.after_of_forall_not_mem (b := Proc.devRef .tc main_v6) hostOps3 (W5 m ρ c) (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W4 m ρ c (Proc.devRef .tc main_v6) := (W5_of_ne m ρ c main_v6 (by decide))
    _ = W3 m ρ c (Proc.devRef .tc main_v6) := (W4_of_ne m ρ c main_v6 (by decide))
    _ = W2 m ρ c (Proc.devRef .tc main_v6) := (StableHlo.after_of_forall_not_mem (b := Proc.devRef .tc main_v6) hostOps1 (W2 m ρ c) (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_v6) := (W2_of_ne m ρ c main_v6 (by decide))

theorem W2_main_v26 (c : Dev nD) : W2 m ρ c (Proc.devRef .tc main_v26) = W1 m ρ c (Proc.devRef .tc main_v26) :=
  calc W2 m ρ c (Proc.devRef .tc main_v26)
    _ = W1 m ρ c (Proc.devRef .tc main_v26) := (W2_of_ne m ρ c main_v26 (by decide))

theorem W5_main_v26 (c : Dev nD) : W5 m ρ c (Proc.devRef .tc main_v26) = W1 m ρ c (Proc.devRef .tc main_v26) :=
  calc W5 m ρ c (Proc.devRef .tc main_v26)
    _ = W4 m ρ c (Proc.devRef .tc main_v26) := (W5_of_ne m ρ c main_v26 (by decide))
    _ = W3 m ρ c (Proc.devRef .tc main_v26) := (W4_of_ne m ρ c main_v26 (by decide))
    _ = W2 m ρ c (Proc.devRef .tc main_v26) := (StableHlo.after_of_forall_not_mem (b := Proc.devRef .tc main_v26) hostOps1 (W2 m ρ c) (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_v26) := (W2_of_ne m ρ c main_v26 (by decide))

theorem W8_main_v26 (c : Dev nD) : W8 m ρ c (Proc.devRef .tc main_v26) = W1 m ρ c (Proc.devRef .tc main_v26) :=
  calc W8 m ρ c (Proc.devRef .tc main_v26)
    _ = W7 m ρ c (Proc.devRef .tc main_v26) := (W8_of_ne m ρ c main_v26 (by decide))
    _ = W6 m ρ c (Proc.devRef .tc main_v26) := (W7_of_ne m ρ c main_v26 (by decide))
    _ = W5 m ρ c (Proc.devRef .tc main_v26) := (StableHlo.after_of_forall_not_mem (b := Proc.devRef .tc main_v26) hostOps3 (W5 m ρ c) (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W4 m ρ c (Proc.devRef .tc main_v26) := (W5_of_ne m ρ c main_v26 (by decide))
    _ = W3 m ρ c (Proc.devRef .tc main_v26) := (W4_of_ne m ρ c main_v26 (by decide))
    _ = W2 m ρ c (Proc.devRef .tc main_v26) := (StableHlo.after_of_forall_not_mem (b := Proc.devRef .tc main_v26) hostOps1 (W2 m ρ c) (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_v26) := (W2_of_ne m ρ c main_v26 (by decide))

/-! ## The arguments, where each is read -/

theorem W1_main_arg0 (c : Dev nD) : W1 m ρ c (Proc.devRef .tc main_arg0) = W0 m ρ c (Proc.devRef .tc main_arg0) :=
  calc W1 m ρ c (Proc.devRef .tc main_arg0)
    _ = W0 m ρ c (Proc.devRef .tc main_arg0) := (StableHlo.after_of_forall_not_mem (b := Proc.devRef .tc main_arg0) hostOps0 (W0 m ρ c) (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W1_main_arg2 (c : Dev nD) : W1 m ρ c (Proc.devRef .tc main_arg2) = W0 m ρ c (Proc.devRef .tc main_arg2) :=
  calc W1 m ρ c (Proc.devRef .tc main_arg2)
    _ = W0 m ρ c (Proc.devRef .tc main_arg2) := (StableHlo.after_of_forall_not_mem (b := Proc.devRef .tc main_arg2) hostOps0 (W0 m ρ c) (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W2_main_arg3 (c : Dev nD) : W2 m ρ c (Proc.devRef .tc main_arg3) = W0 m ρ c (Proc.devRef .tc main_arg3) :=
  calc W2 m ρ c (Proc.devRef .tc main_arg3)
    _ = W1 m ρ c (Proc.devRef .tc main_arg3) := (W2_of_ne m ρ c main_arg3 (by decide))
    _ = W0 m ρ c (Proc.devRef .tc main_arg3) := (StableHlo.after_of_forall_not_mem (b := Proc.devRef .tc main_arg3) hostOps0 (W0 m ρ c) (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W4_main_arg4 (c : Dev nD) : W4 m ρ c (Proc.devRef .tc main_arg4) = W0 m ρ c (Proc.devRef .tc main_arg4) :=
  calc W4 m ρ c (Proc.devRef .tc main_arg4)
    _ = W3 m ρ c (Proc.devRef .tc main_arg4) := (W4_of_ne m ρ c main_arg4 (by decide))
    _ = W2 m ρ c (Proc.devRef .tc main_arg4) := (StableHlo.after_of_forall_not_mem (b := Proc.devRef .tc main_arg4) hostOps1 (W2 m ρ c) (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg4) := (W2_of_ne m ρ c main_arg4 (by decide))
    _ = W0 m ρ c (Proc.devRef .tc main_arg4) := (StableHlo.after_of_forall_not_mem (b := Proc.devRef .tc main_arg4) hostOps0 (W0 m ρ c) (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W5_main_arg5 (c : Dev nD) : W5 m ρ c (Proc.devRef .tc main_arg5) = W0 m ρ c (Proc.devRef .tc main_arg5) :=
  calc W5 m ρ c (Proc.devRef .tc main_arg5)
    _ = W4 m ρ c (Proc.devRef .tc main_arg5) := (W5_of_ne m ρ c main_arg5 (by decide))
    _ = W3 m ρ c (Proc.devRef .tc main_arg5) := (W4_of_ne m ρ c main_arg5 (by decide))
    _ = W2 m ρ c (Proc.devRef .tc main_arg5) := (StableHlo.after_of_forall_not_mem (b := Proc.devRef .tc main_arg5) hostOps1 (W2 m ρ c) (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg5) := (W2_of_ne m ρ c main_arg5 (by decide))
    _ = W0 m ρ c (Proc.devRef .tc main_arg5) := (StableHlo.after_of_forall_not_mem (b := Proc.devRef .tc main_arg5) hostOps0 (W0 m ρ c) (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W7_main_arg6 (c : Dev nD) : W7 m ρ c (Proc.devRef .tc main_arg6) = W0 m ρ c (Proc.devRef .tc main_arg6) :=
  calc W7 m ρ c (Proc.devRef .tc main_arg6)
    _ = W6 m ρ c (Proc.devRef .tc main_arg6) := (W7_of_ne m ρ c main_arg6 (by decide))
    _ = W5 m ρ c (Proc.devRef .tc main_arg6) := (StableHlo.after_of_forall_not_mem (b := Proc.devRef .tc main_arg6) hostOps3 (W5 m ρ c) (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W4 m ρ c (Proc.devRef .tc main_arg6) := (W5_of_ne m ρ c main_arg6 (by decide))
    _ = W3 m ρ c (Proc.devRef .tc main_arg6) := (W4_of_ne m ρ c main_arg6 (by decide))
    _ = W2 m ρ c (Proc.devRef .tc main_arg6) := (StableHlo.after_of_forall_not_mem (b := Proc.devRef .tc main_arg6) hostOps1 (W2 m ρ c) (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg6) := (W2_of_ne m ρ c main_arg6 (by decide))
    _ = W0 m ρ c (Proc.devRef .tc main_arg6) := (StableHlo.after_of_forall_not_mem (b := Proc.devRef .tc main_arg6) hostOps0 (W0 m ρ c) (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem W8_main_arg7 (c : Dev nD) : W8 m ρ c (Proc.devRef .tc main_arg7) = W0 m ρ c (Proc.devRef .tc main_arg7) :=
  calc W8 m ρ c (Proc.devRef .tc main_arg7)
    _ = W7 m ρ c (Proc.devRef .tc main_arg7) := (W8_of_ne m ρ c main_arg7 (by decide))
    _ = W6 m ρ c (Proc.devRef .tc main_arg7) := (W7_of_ne m ρ c main_arg7 (by decide))
    _ = W5 m ρ c (Proc.devRef .tc main_arg7) := (StableHlo.after_of_forall_not_mem (b := Proc.devRef .tc main_arg7) hostOps3 (W5 m ρ c) (List.forall_iff_forall_mem.mp (by
      simp only [hostOps3, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W4 m ρ c (Proc.devRef .tc main_arg7) := (W5_of_ne m ρ c main_arg7 (by decide))
    _ = W3 m ρ c (Proc.devRef .tc main_arg7) := (W4_of_ne m ρ c main_arg7 (by decide))
    _ = W2 m ρ c (Proc.devRef .tc main_arg7) := (StableHlo.after_of_forall_not_mem (b := Proc.devRef .tc main_arg7) hostOps1 (W2 m ρ c) (List.forall_iff_forall_mem.mp (by
      simp only [hostOps1, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))
    _ = W1 m ρ c (Proc.devRef .tc main_arg7) := (W2_of_ne m ρ c main_arg7 (by decide))
    _ = W0 m ρ c (Proc.devRef .tc main_arg7) := (StableHlo.after_of_forall_not_mem (b := Proc.devRef .tc main_arg7) hostOps0 (W0 m ρ c) (List.forall_iff_forall_mem.mp (by
      simp only [hostOps0, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

end Cert.KernelIdeal.Hand

end
-- ==== Proof.Stages.lean ====
/-
  The contents of the buffers along the idealized kernel's run, as the reference's own stages of the arguments.

  The first host stretch builds the edge lists (the given edges followed by one self loop per node), the degrees, and
  the edge weights; these are the same operations the reference runs, so the buffers hold the reference's stages of
  the edge array. Then each layer: the matmul call leaves the reference's dot_general of the layer's input and weight
  (Regions), the host stretch gathers rows by source, scales by the edge weights and scatter-adds by destination
  — again the reference's own operations —, and the bias call leaves the reference's bias (and relu) stage. Three
  layers in, the result buffer holds the reference's result stage of the eight arguments.
-/
import proofs.«151111_j11312943858128_1_alg».proof.Proof.Gen.KernelIdeal.Frame
import proofs.«151111_j11312943858128_1_alg».proof.Proof.Gen.ReferenceIdeal.Read
import proofs.«151111_j11312943858128_1_alg».proof.Proof.Entries
import proofs.«151111_j11312943858128_1_alg».proof.Proof.Regions
import proofs.«151111_j11312943858128_1_alg».proof.Proof.Carry
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The graph: edge lists and edge weights -/

/-- The source list: the given sources followed by the nodes themselves. -/
theorem src_eq (c : Dev nD) : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl

/-- The destination list. -/
theorem dst_eq (c : Dev nD) : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results_simp
  rfl

/-- The edge weights: the product of the inverse square roots of the two end nodes' degrees. -/
theorem norm_eq (c : Dev nD) : W1 m ρ c (Proc.devRef .tc main_v26) = Cert.ReferenceIdeal.Read.val_main_v27 (F := Ideal) (m ((c : Thread nD τ).loc main_arg1)) := by
  show StableHlo.after hostOps0 (W0 m ρ c) (Proc.devRef .tc main_v26) = _
  after_results_simp
  rfl

/-! ## Layer 1 -/

/-- After the first matmul call: the input features times the first weight matrix. -/
theorem h1_eq (c : Dev nD) : W2 m ρ c (Proc.devRef .tc main_v27) = Cert.ReferenceIdeal.Read.val_main_v12 (F := Ideal) (m ((c : Thread nD τ).loc main_arg0)) (m ((c : Thread nD τ).loc main_arg2)) := by
  refine (W2_arr m ρ c 2).trans ?_
  refine (Cert.KernelIdeal.Tiles.final0 (V1 m ρ) c).trans ?_
  show Cert.ReferenceIdeal.Read.val_main_v12 (F := Ideal) (W1 m ρ c (Proc.devRef .tc main_arg0)) (W1 m ρ c (Proc.devRef .tc main_arg2)) = _
  rw [W1_main_arg0 m ρ c, W1_main_arg2 m ρ c]

/-- After the second host stretch: the messages summed into their destinations. -/
theorem agg1_eq (c : Dev nD) : W3 m ρ c (Proc.devRef .tc main_v40) = Cert.ReferenceIdeal.Read.val_main_v40 (F := Ideal) (m ((c : Thread nD τ).loc main_arg0)) (m ((c : Thread nD τ).loc main_arg1)) (m ((c : Thread nD τ).loc main_arg2)) := by
  show StableHlo.after hostOps1 (W2 m ρ c) (Proc.devRef .tc main_v40) = _
  after_results_simp
  rw [W2_main_v3 m ρ c, W2_main_v6 m ρ c, W2_main_v26 m ρ c, src_eq m ρ c, dst_eq m ρ c, norm_eq m ρ c, h1_eq m ρ c]
  rfl

/-- The first bias as a row. -/
theorem b1row_eq (c : Dev nD) : W3 m ρ c (Proc.devRef .tc main_v41) = Cert.ReferenceIdeal.Read.val_main_v41 (F := Ideal) (m ((c : Thread nD τ).loc main_arg3)) := by
  show StableHlo.after hostOps1 (W2 m ρ c) (Proc.devRef .tc main_v41) = _
  after_results
  rw [W2_main_arg3 m ρ c]
  exact Cert.KernelIdeal.Entry.reshape_row128 _

/-- After the first bias call: layer 1's output. -/
theorem act1_eq (c : Dev nD) : W4 m ρ c (Proc.devRef .tc main_v42) = Cert.ReferenceIdeal.Read.val_main_v44 (F := Ideal) (m ((c : Thread nD τ).loc main_arg0)) (m ((c : Thread nD τ).loc main_arg1)) (m ((c : Thread nD τ).loc main_arg2)) (m ((c : Thread nD τ).loc main_arg3)) := by
  refine (W4_arr m ρ c 2).trans ?_
  refine (Cert.KernelIdeal.Tiles.final1 (V3 m ρ) c).trans ?_
  show Cert.KernelIdeal.Entry.refBiasRelu (W3 m ρ c (Proc.devRef .tc main_v40)) (W3 m ρ c (Proc.devRef .tc main_v41)) = _
  rw [agg1_eq m ρ c, b1row_eq m ρ c]
  rfl

/-! ## Layer 2 -/

theorem h2_eq (c : Dev nD) : W5 m ρ c (Proc.devRef .tc main_v43) = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ?_
  refine (Cert.KernelIdeal.Tiles.final2 (V4 m ρ) c).trans ?_
  show Cert.ReferenceIdeal.Read.val_main_v12 (F := Ideal) (W4 m ρ c (Proc.devRef .tc main_v42)) (W4 m ρ c (Proc.devRef .tc main_arg4)) = _
  rw [act1_eq m ρ c, W4_main_arg4 m ρ c]
  rfl

theorem agg2_eq (c : Dev nD) : W6 m ρ c (Proc.devRef .tc main_v56) = Cert.ReferenceIdeal.Read.val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v56) = _
  after_results_simp
  rw [W5_main_v3 m ρ c, W5_main_v6 m ρ c, W5_main_v26 m ρ c, src_eq m ρ c, dst_eq m ρ c, norm_eq m ρ c, h2_eq m ρ c]
  rfl

theorem b2row_eq (c : Dev nD) : W6 m ρ c (Proc.devRef .tc main_v57) = Cert.ReferenceIdeal.Read.val_main_v74 (F := Ideal) (m ((c : Thread nD τ).loc main_arg5)) := by
  show StableHlo.after hostOps3 (W5 m ρ c) (Proc.devRef .tc main_v57) = _
  after_results
  rw [W5_main_arg5 m ρ c]
  exact Cert.KernelIdeal.Entry.reshape_row128 _

theorem act2_eq (c : Dev nD) : W7 m ρ c (Proc.devRef .tc main_v58) = Cert.ReferenceIdeal.Read.val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ?_
  refine (Cert.KernelIdeal.Tiles.final3 (V6 m ρ) c).trans ?_
  show Cert.KernelIdeal.Entry.refBiasRelu (W6 m ρ c (Proc.devRef .tc main_v56)) (W6 m ρ c (Proc.devRef .tc main_v57)) = _
  rw [agg2_eq m ρ c, b2row_eq m ρ c]
  rfl

/-! ## Layer 3 -/

theorem h3_eq (c : Dev nD) : W8 m ρ c (Proc.devRef .tc main_v59) = Cert.ReferenceIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ?_
  refine (Cert.KernelIdeal.Tiles.final4 (V7 m ρ) c).trans ?_
  show Cert.KernelIdeal.Entry.host64 (W7 m ρ c (Proc.devRef .tc main_v58)) (W7 m ρ c (Proc.devRef .tc main_arg6)) = _
  rw [act2_eq m ρ c, W7_main_arg6 m ρ c]
  rfl

theorem agg3_eq (c : Dev nD) : W9 m ρ c (Proc.devRef .tc main_v72) = Cert.ReferenceIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W8 m ρ c) (Proc.devRef .tc main_v72) = _
  after_results_simp
  rw [W8_main_v3 m ρ c, W8_main_v6 m ρ c, W8_main_v26 m ρ c, src_eq m ρ c, dst_eq m ρ c, norm_eq m ρ c, h3_eq m ρ c]
  rfl

theorem b3row_eq (c : Dev nD) : W9 m ρ c (Proc.devRef .tc main_v73) = Cert.ReferenceIdeal.Read.val_main_v107 (F := Ideal) (m ((c : Thread nD τ).loc main_arg7)) := by
  show StableHlo.after hostOps5 (W8 m ρ c) (Proc.devRef .tc main_v73) = _
  after_results
  rw [W8_main_arg7 m ρ c]
  exact Cert.KernelIdeal.Entry.reshape_row64 _

/-- The result buffer at the last boundary: the reference's result stage of the eight arguments. -/
theorem result_eq (c : Dev nD) : W10 m ρ c (Proc.devRef .tc main_v74) = Cert.ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 2).trans ?_
  refine (Cert.KernelIdeal.Tiles.final5 (V9 m ρ) c).trans ?_
  show Cert.KernelIdeal.Entry.refBias64 (W9 m ρ c (Proc.devRef .tc main_v72)) (W9 m ρ c (Proc.devRef .tc main_v73)) = _
  rw [agg3_eq m ρ c, b3row_eq m ρ c]
  rfl

end Cert.KernelIdeal.Hand

end
-- ==== Proof.lean ====
/-
  A three-layer graph convolution network on 50000 nodes and 800000 edges plus self loops, as a Pallas program and as
  plain jnp: per layer, features times a weight matrix, rows gathered by edge source, scaled by the symmetric degree
  normalisation, summed into the edge destinations, plus a bias, and a relu after the first two layers.

  The kernel program runs each product and each bias-and-relu as a pipelined call over ten blocks of 5000 rows and
  keeps the gather, the scaling and the scatter-add on the host; the reference runs everything on the host. At the
  ideal values the rounding of a product's operands to bf16 is the identity and a row block of a product depends on
  the same row block of its left operand only, so each call leaves exactly the reference's stage of the arrays it
  finds (Regions), the host operations between the calls are the reference's own (Stages), and the two results are
  one function of the eight arguments. No finiteness is used: the two sides are the same expression, not merely
  equal on finite inputs. The ideal pass rewrote nothing, so there is nothing to preserve.
-/
import proofs.«151111_j11312943858128_1_alg».proof.Defs
import proofs.«151111_j11312943858128_1_alg».proof.Proof.Gen.Kernel
import proofs.«151111_j11312943858128_1_alg».proof.Proof.Gen.Kernel.Frame
import proofs.«151111_j11312943858128_1_alg».proof.Proof.Gen.KernelIdeal
import proofs.«151111_j11312943858128_1_alg».proof.Proof.Gen.KernelIdeal.Frame
import proofs.«151111_j11312943858128_1_alg».proof.Proof.Gen.ReferenceIdeal
import proofs.«151111_j11312943858128_1_alg».proof.Proof.Gen.Pre_finite_inputs
import proofs.«151111_j11312943858128_1_alg».proof.Proof.Gen.ReferenceIdeal.Run
import proofs.«151111_j11312943858128_1_alg».proof.Proof.Gen.ReferenceIdeal.Read
import proofs.«151111_j11312943858128_1_alg».proof.Proof.KernelRun
import proofs.«151111_j11312943858128_1_alg».proof.Proof.Stages
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs end with the reference's result stage of the eight arguments in their result buffers. -/
theorem algebraic : Cert.algebraic_KernelIdeal_ReferenceIdeal := by
  intro m ρ m' ρ' _ hagree
  refine ⟨fun c => Cert.ReferenceIdeal.Read.val_main_v109 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.KernelIdeal.Hand.result_eq m ρ c), (h c).2⟩)
      (Cert.KernelIdeal.Hand.run_result (F := Ideal) m ρ)
  · refine (θ_run Cert.ReferenceIdeal.defs _ _).mono (fun _ h c => ⟨(h c).1.trans ?_, (h c).2⟩) (Cert.ReferenceIdeal.Value.run (F := Ideal) m' ρ')
    obtain ⟨e0, e1, e2, e3, e4, e5, e6, e7⟩ := hagree c
    rw [Cert.ReferenceIdeal.Read.val_main_v109_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
